-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S8192x256 .f32) (main_arg1 : FVec F S8192x8192 .f32) (main_arg2 : FVec F S256x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S8192x256 : Shape := ⟨2, ![8192, 256]⟩
abbrev S8192x8192 : Shape := ⟨2, ![8192, 8192]⟩
abbrev S256x256 : Shape := ⟨2, ![256, 256]⟩
abbrev S512x8192 : Shape := ⟨2, ![512, 8192]⟩
abbrev S512x256 : Shape := ⟨2, ![512, 256]⟩

abbrev nBuf : Space → Nat
  | .hbm => 4
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S8192x256, .f32⟩
  | .local _ .vmem, ⟨0, _⟩ => ⟨S8192x256, .f32⟩
  | .local _ .vmem, ⟨1, _⟩ => ⟨S256x256, .f32⟩
  | .local _ .vmem, ⟨2, _⟩ => ⟨S512x8192, .f32⟩
  | .local _ .vmem, ⟨3, _⟩ => ⟨S512x8192, .f32⟩
  | .local _ .vmem, ⟨4, _⟩ => ⟨S512x256, .f32⟩
  | .local _ .vmem, ⟨5, _⟩ => ⟨S512x256, .f32⟩
  | .local _ .vmem, ⟨6, _⟩ => ⟨S8192x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S8192x256_S8192x256_0_0 : ∀ a, (![0, 0] : Fin 2 → Nat) a + S8192x256.size a ≤ S8192x256.size a
  h_S8192x256 : 0 < S8192x256.numel
  inb_S256x256_S256x256_0_0 : ∀ a, (![0, 0] : Fin 2 → Nat) a + S256x256.size a ≤ S256x256.size a
  h_S256x256 : 0 < S256x256.numel
  shapeCasts_S8192x256_S8192x256 : S8192x256.ShapeCasts S8192x256
  inb_S512x8192_S512x8192_0_0 : ∀ a, (![0, 0] : Fin 2 → Nat) a + S512x8192.size a ≤ S512x8192.size a
  h_S512x8192 : 0 < S512x8192.numel
  inb_S512x256_S512x256_0_0 : ∀ a, (![0, 0] : Fin 2 → Nat) a + S512x256.size a ≤ S512x256.size a
  h_S512x256 : 0 < S512x256.numel
  dot_S8192x256_S256x256_S8192x256_1_0_0_1_n_n_wf : DotDims.WF S8192x256 S256x256 S8192x256 [1] [0] [0] [1] [] []
  dot_S512x8192_S8192x256_S512x256_1_0_0_1_n_n_wf : DotDims.WF S512x8192 S8192x256 S512x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x256.size a
  hwx0_0 : ∀ i : grid0.Coords, EltTy.bits .f32 = 32 ∨ (Rect.block (s := S8192x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8192.size a ≤ S8192x8192.size a
  hwx0_2 : ∀ i : grid0.Coords, EltTy.bits .f32 = 32 ∨ (Rect.block (s := S8192x8192) S512x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x256.size a
  hwx0_3 : ∀ i : grid0.Coords, EltTy.bits .f32 = 32 ∨ (Rect.block (s := S8192x256) S512x256.size (cc0_transform_3 i) (hinb0_3 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S512x8192_S8192x256_S512x256_1_0_0_1_n_n : DotDims S512x8192 S8192x256 S512x256 where
  lhsContracting := [1]
  rhsContracting := [0]
  lhsNonContracting := [0]
  rhsNonContracting := [1]
  lhsBatch := []
  rhsBatch := []
  wf := dot_S512x8192_S8192x256_S512x256_1_0_0_1_n_n_wf

abbrev win0_0 : Pipeline.Window sig grid0 :=
  Pipeline.Window.ofSpec (Memref.whole main_arg0) S8192x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S8192x256, .f32⟩
  | .hbm, ⟨4, _⟩ => ⟨S8192x256, .f32⟩
  | .hbm, ⟨5, _⟩ => ⟨S_, .f32⟩
  | .hbm, ⟨6, _⟩ => ⟨S8192x256, .f32⟩
  | .hbm, ⟨7, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  dot_S8192x256_S256x256_S8192x256_1_0_0_1_n_n_wf : DotDims.WF S8192x256 S256x256 S8192x256 [1] [0] [0] [1] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.CaseValues.lean ====
/-
  What one grid step of the fused graph-convolution body leaves behind, as pure values.

  The body keeps the product `support = x · W` in a scratch buffer that lives across grid steps. On a step whose second
  grid coordinate is zero it first overwrites the scratch with `x · W` (computed from the two resident input blocks) and
  then reads it back; on every other step it only reads what an earlier step stored. Either way it then writes
  `max (adjBlock · scratch, 0)` to the output block. So there are two control cases, and three facts:

    * a resetting step leaves `x · W` in the scratch                                   (`scratch_reset`);
    * a resetting step's output block is `max (adjBlock · (x · W), 0)` — the read-back of the scratch sees exactly the
      product stored a moment earlier                                                  (`out_reset`);
    * a non-resetting step's output block is `max (adjBlock · s, 0)` for whatever `s` the scratch held on entry
                                                                                       (`out_keep`).

  All three hold for every float instance: they only say which loads feed which store.
-/
import proofs.«137262_g66340064854103_cont_9to1_m_1098_23_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem

namespace Cert.KernelIdeal.Gcn

open Cert.KernelIdeal Cert.KernelIdeal.Gen

variable {F : FTy → Type} [FloatOps F]

/-- The zero offsets of a whole-buffer access, as a constant function. -/
theorem zeroOff : (![0, 0] : Fin 2 → Nat) = fun _ => 0 := funext fun a => by fin_cases a <;> rfl

/-- A resetting step stores the product of the two resident blocks into the carried scratch, whole. -/
theorem scratch_reset (c : Dev nD) (i : grid0.Coords) (a2 : Memref sig .tc .vmem S8192x256 .f32) (h2 : a2.IsWhole)
    (a3 : Memref sig .tc .vmem S256x256 .f32) (h3 : a3.IsWhole) (a4 : Memref sig .tc .vmem S512x8192 .f32) (h4 : a4.IsWhole)
    (a5 : Memref sig .tc .vmem S512x256 .f32) (h5 : a5.IsWhole) (a6 : Memref sig .tc .vmem S8192x256 .f32) (h6 : a6.IsWhole) (hc : cond0_0 i)
    (x0 : Vec F S8192x256 .f32) (x1 : Vec F S256x256 .f32) (x2 : Vec F S512x8192 .f32) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero zeroOff]
  simp only [View.readAt_eq_ld, h2.read_unread, h3.read_unread, View.ld_unit_zero (S := S8192x256) zeroOff,
    View.ld_unit_zero (S := S256x256) zeroOff]

/-- A resetting step's output block: the adjacency block times the product it has just stored (the scratch is read
    back after the store that covered it), clamped below at zero. -/
theorem out_reset (c : Dev nD) (i : grid0.Coords) (a2 : Memref sig .tc .vmem S8192x256 .f32) (h2 : a2.IsWhole)
    (a3 : Memref sig .tc .vmem S256x256 .f32) (h3 : a3.IsWhole) (a4 : Memref sig .tc .vmem S512x8192 .f32) (h4 : a4.IsWhole)
    (a5 : Memref sig .tc .vmem S512x256 .f32) (h5 : a5.IsWhole) (a6 : Memref sig .tc .vmem S8192x256 .f32) (h6 : a6.IsWhole) (hc : cond0_0 i)
    (x0 : Vec F S8192x256 .f32) (x1 : Vec F S256x256 .f32) (x2 : Vec F S512x8192 .f32) :
    out0_A_3 c i a2 h2 a3 h3 a4 h4 a5 h5 a6 h6 hc x0 x1 x2 = k0_pay2 x2 (k0_pay1 x0 x1) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero zeroOff, View.readCov_unit_zero (S := S8192x256) _ zeroOff]
  simp only [View.readAt_eq_ld, h2.read_unread, h3.read_unread, h4.read_unread, View.ld_unit_zero (S := S8192x256) zeroOff,
    View.ld_unit_zero (S := S256x256) zeroOff, View.ld_unit_zero (S := S512x8192) zeroOff]

/-- A non-resetting step's output block: the adjacency block times whatever the scratch held on entry, clamped below
    at zero. -/
theorem out_keep (c : Dev nD) (i : grid0.Coords) (a2 : Memref sig .tc .vmem S8192x256 .f32) (h2 : a2.IsWhole)
    (a3 : Memref sig .tc .vmem S256x256 .f32) (h3 : a3.IsWhole) (a4 : Memref sig .tc .vmem S512x8192 .f32) (h4 : a4.IsWhole)
    (a5 : Memref sig .tc .vmem S512x256 .f32) (h5 : a5.IsWhole) (a6 : Memref sig .tc .vmem S8192x256 .f32) (h6 : a6.IsWhole) (hc : ¬cond0_0 i)
    (x0 : Vec F S8192x256 .f32) (x1 : Vec F S256x256 .f32) (x2 : Vec F S512x8192 .f32) (xs : Vec F S8192x256 .f32) :
    out0_B_3 c i a2 h2 a3 h3 a4 h4 a5 h5 a6 h6 hc x0 x1 x2 xs = k0_pay2 x2 xs := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero zeroOff]
  simp only [View.readAt_eq_ld, h4.read_unread, h6.read_unread, View.ld_unit_zero (S := S512x8192) zeroOff,
    View.ld_unit_zero (S := S8192x256) zeroOff]

end Cert.KernelIdeal.Gcn

end
-- ==== Proof.Carry.lean ====
/-
  The scratch carried across the grid always holds `x · W`, and so every step writes `max (adjBlock · (x · W), 0)`.

  The grid has 2 × 8 steps, visited in row-major order; step `t` has second coordinate `t mod 8`. The feature matrix
  `x` and the weight matrix `W` are resident: their block index is (0, 0) at every step and the block is the whole
  array (`block_x`, `block_w`). A step with `t mod 8 = 0` overwrites the scratch with `x · W`; any other step leaves the
  scratch as it found it. Step 0 resets, so by induction on the step the scratch holds `x · W` after every step
  (`carried`) — the second reset at step 8 stores the same product again. Hence the output block of step `t` is
  `max (A_t · (x · W), 0)`, with `A_t` the step's adjacency block (`written`), in both control cases.

  Everything here holds for every float instance.
-/
import proofs.«137262_g66340064854103_cont_9to1_m_1098_23_alg».proof.Proof.CaseValues

noncomputable section

open Idealize.ShloMosaic Idealize.ShloMosaic.TcCoe Idealize.SL.Sem

namespace Cert.KernelIdeal.Gcn

open Cert.KernelIdeal Cert.KernelIdeal.Gen

variable {F : FTy → Type} [FloatOps F]
variable (m : (ℓ : Loc nD τ sig) → Buf (Elt F) ℓ)

/-- The printed index maps over the sixteen steps: the feature and weight windows never move; the adjacency and
    output windows sit at row block `t`, column block 0. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature matrix as launched. -/
abbrev feat (c : Dev nD) : Vec F S8192x256 .f32 := m ((c : Thread nD τ).loc main_arg0)
/-- The weight matrix as launched. -/
abbrev wgt (c : Dev nD) : Vec F S256x256 .f32 := m ((c : Thread nD τ).loc main_arg2)
/-- The adjacency matrix as launched. -/
abbrev adjm (c : Dev nD) : Vec F S8192x8192 .f32 := m ((c : Thread nD τ).loc main_arg1)

/-- The product the body keeps in its scratch: the body's first matrix product applied to the whole feature and
    weight matrices. -/
def support (c : Dev nD) : Vec F S8192x256 .f32 := k0_pay1 (feat m c) (wgt m c)

/-- The feature window's block is the whole feature matrix at every step. -/
theorem block_x (c : Dev nD) (t : Fin cfg0.N) : (iblk m c 0 t : Vec F S8192x256 .f32) = feat m c := by
  obtain ⟨e0, e1, -⟩ := index_facts t
  funext j
  unfold iblk
  rw [View.read_apply]
  show V m c main_arg0 _ = m ((c : Thread nD τ).loc main_arg0) j
  unfold V
  congr 1
  funext a
  apply Fin.ext
  match a with
  | ⟨0, _⟩ => show win0_0.index t (0 : Fin 2) * 8192 + 1 * (j 0).val = (j 0).val; rw [e0]; omega
  | ⟨1, _⟩ => show win0_0.index t (1 : Fin 2) * 256 + 1 * (j 1).val = (j 1).val; rw [e1]; omega

/-- The weight window's block is the whole weight matrix at every step. -/
theorem block_w (c : Dev nD) (t : Fin cfg0.N) : (iblk m c 1 t : Vec F S256x256 .f32) = wgt m c := by
  obtain ⟨-, -, e0, e1, -⟩ := index_facts t
  funext j
  unfold iblk
  rw [View.read_apply]
  show V m c main_arg2 _ = m ((c : Thread nD τ).loc main_arg2) j
  unfold V
  congr 1
  funext a
  apply Fin.ext
  match a with
  | ⟨0, _⟩ => show win0_1.index t (0 : Fin 2) * 256 + 1 * (j 0).val = (j 0).val; rw [e0]; omega
  | ⟨1, _⟩ => show win0_1.index t (1 : Fin 2) * 256 + 1 * (j 1).val = (j 1).val; rw [e1]; omega

/-- After every step the scratch holds `x · W`: a resetting step stores it, any other step keeps what the step before
    left, and the first step resets. -/
theorem carried (c : Dev nD) : ∀ (n : ℕ) (h : n < cfg0.N), (outsAt0 m c n h).2 = support m c := by
  intro n
  induction n with
  | zero =>
    intro h
    have h0 : (⟨0, h⟩ : Fin cfg0.N).val % 8 = 0 := Nat.zero_mod 8
    rw [outsAt0_A m c ⟨0, h⟩ h0]
    dsimp only
    refine (scratch_reset c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) scM0_0 (Memref.isWhole_whole _) ((hcond0_0 ⟨0, h⟩).mpr h0)
      (iblk m c 0 ⟨0, h⟩) (iblk m c 1 ⟨0, h⟩) (iblk m c 2 ⟨0, h⟩)).trans ?_
    exact congrArg₂ k0_pay1 (block_x m c ⟨0, h⟩) (block_w m c ⟨0, h⟩)
  | succ n ih =>
    intro h
    by_cases h0 : (⟨n + 1, h⟩ : Fin cfg0.N).val % 8 = 0
    · rw [outsAt0_A m c ⟨n + 1, h⟩ h0]
      dsimp only
      refine (scratch_reset c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) scM0_0 (Memref.isWhole_whole _)
        ((hcond0_0 ⟨n + 1, h⟩).mpr h0) (iblk m c 0 ⟨n + 1, h⟩) (iblk m c 1 ⟨n + 1, h⟩) (iblk m c 2 ⟨n + 1, h⟩)).trans ?_
      exact congrArg₂ k0_pay1 (block_x m c ⟨n + 1, h⟩) (block_w m c ⟨n + 1, h⟩)
    · rw [outsAt0_B m c ⟨n + 1, h⟩ h0]
      dsimp only
      unfold sout0_B_0
      exact ih (Nat.lt_of_succ_lt h)

/-- What step `t` leaves in the output's staging buffer: its adjacency block times `x · W`, clamped below at zero. -/
theorem written (c : Dev nD) (t : Fin cfg0.N) :
    (outsAt0 m c t.val t.isLt).1 = k0_pay2 (iblk m c 2 t) (support m c) := by
  by_cases h0 : t.val % 8 = 0
  · rw [outsAt0_A m c t h0]
    dsimp only
    refine (out_reset c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)).trans ?_
    exact congrArg (k0_pay2 (iblk m c 2 t)) (congrArg₂ k0_pay1 (block_x m c t) (block_w m c t))
  · rw [outsAt0_B m c t h0]
    dsimp only
    refine (out_keep c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2).trans ?_
    exact congrArg (k0_pay2 (iblk m c 2 t)) (carried m c _ _)

end Cert.KernelIdeal.Gcn

end
-- ==== Proof.GcnSpec.lean ====
/-
  The dense graph-convolution layer as one function of its three arguments, over the extended reals.

  With `x` the 8192 × 256 feature matrix, `A` the 8192 × 8192 adjacency matrix and `W` the 256 × 256 weight matrix,

      support k c  =  Σ_j x[k, j] · W[j, c]                      (the product x · W)
      layer (p, c) =  max ( Σ_k A[p, k] · support k c , 0 )      (relu (A · (x · W)))

  The sums are finite sums in the extended reals, whose addition is commutative and associative, so no order of
  summation is part of the definition. The two products are grouped as both programs group them — `A · (x · W)` — so
  no distributive law, and hence no finiteness of the inputs, is needed to compare them with this function. The zero
  is kept as the word the programs print for it.
-/
import Idealize.ShloMosaic.PureOps.Ideal
import Idealize.ShloMosaic.Lib.ValueIdx

noncomputable section

open scoped BigOperators

namespace Cert.GcnSpec

open Idealize.ShloMosaic Idealize.ShloMosaic.ValueIdx

/-- Entry `(k, c)` of the product `x · W`. -/
def support (x : FVec Ideal ⟨2, ![8192, 256]⟩ .f32) (w : FVec Ideal ⟨2, ![256, 256]⟩ .f32) (k : Fin 8192) (c : Fin 256) : EReal :=
  ∑ j : Fin 256, x (ix2 k j) * w (ix2 j c)

/-- Entry `(p, c)` of the layer's output: row `p` of the adjacency matrix against column `c` of `x · W`, clamped below
    at zero. -/
def entry (x : FVec Ideal ⟨2, ![8192, 256]⟩ .f32) (a : FVec Ideal ⟨2, ![8192, 8192]⟩ .f32) (w : FVec Ideal ⟨2, ![256, 256]⟩ .f32)
    (p : Fin 8192) (c : Fin 256) : EReal :=
  max (∑ k : Fin 8192, a (ix2 p k) * support x w k c) (Ideal.ofBits .f32 0x00000000#32)

/-- The layer's output array. -/
def layer (x : FVec Ideal ⟨2, ![8192, 256]⟩ .f32) (a : FVec Ideal ⟨2, ![8192, 8192]⟩ .f32) (w : FVec Ideal ⟨2, ![256, 256]⟩ .f32) :
    FVec Ideal ⟨2, ![8192, 256]⟩ .f32 :=
  fun i => entry x a w (i 0) (i 1)

/-- The output array at an index given by its coordinates. -/
theorem layer_apply (x : FVec Ideal ⟨2, ![8192, 256]⟩ .f32) (a : FVec Ideal ⟨2, ![8192, 8192]⟩ .f32) (w : FVec Ideal ⟨2, ![256, 256]⟩ .f32)
    (p : Fin 8192) (c : Fin 256) : layer x a w (ix2 p c) = entry x a w p c := rfl

end Cert.GcnSpec

end
-- ==== Proof.Products.lean ====
/-
  The body's two matrix products, read at one entry over the extended reals.

  Both are products of two matrices into a zero accumulator, contracting the left operand's columns against the right
  operand's rows. Over the extended reals such a product at `(p, q)` is the zero word plus the sum over the contraction
  index; the zero word is the real number 0, so the entry is the plain sum `Σ_k L[p, k] · R[k, q]`. The contraction
  index of a one-axis contraction is that axis' coordinate, and the operand indices the product reads are `(p, k)` on
  the left and `(k, q)` on the right.

    * the first product (features times weights, 8192 × 256 by 256 × 256) at `(k, c)` is the specification's
      `support` (`xw_apply`);
    * the second (an adjacency block of 512 rows times an 8192 × 256 matrix `s`), followed by the maximum with the
      broadcast zero, is at `(r, c)` the larger of `Σ_k a[r, k] · s[k, c]` and zero (`relu_block_apply`).
-/
import proofs.«137262_g66340064854103_cont_9to1_m_1098_23_alg».proof.Proof.Gen.KernelIdeal.Skeleton
import proofs.«137262_g66340064854103_cont_9to1_m_1098_23_alg».proof.Proof.GcnSpec
import Idealize.ShloMosaic.PureOps.Ideal.Laws
import Idealize.ShloMosaic.Lib.ValueIdx
import Idealize.ShloMosaic.Lib.Pipeline.Value

noncomputable section

open scoped BigOperators

namespace Cert.KernelIdeal.Gcn

open Cert.KernelIdeal Cert.KernelIdeal.Gen Idealize.ShloMosaic Idealize.ShloMosaic.ValueIdx

/-! ## Which operand entries each product reads -/

theorem xw_lhs_row (i : S8192x256.Idx) (q : dot_S8192x256_S256x256_S8192x256_1_0_0_1_n_n.contr.Idx) :
    (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide),
    dif_pos (show (0 : Fin S8192x256.rank) ∈ dot_S8192x256_S256x256_S8192x256_1_0_0_1_n_n.lhsNonContracting by decide)]
  rfl
theorem xw_lhs_col (i : S8192x256.Idx) (q : dot_S8192x256_S256x256_S8192x256_1_0_0_1_n_n.contr.Idx) :
    (dot_S8192x256_S256x256_S8192x256_1_0_0_1_n_n.lhsIdx i q 1).val = (q ⟨0, by decide⟩).val :=
  dot_S8192x256_S256x256_S8192x256_1_0_0_1_n_n.lhsIdx_val_of_single rfl i q
theorem xw_rhs_row (i : S8192x256.Idx) (q : dot_S8192x256_S256x256_S8192x256_1_0_0_1_n_n.contr.Idx) :
    (dot_S8192x256_S256x256_S8192x256_1_0_0_1_n_n.rhsIdx i q 0).val = (q ⟨0, by decide⟩).val :=
  dot_S8192x256_S256x256_S8192x256_1_0_0_1_n_n.rhsIdx_val_of_single rfl i q
theorem xw_rhs_col (i : S8192x256.Idx) (q : dot_S8192x256_S256x256_S8192x256_1_0_0_1_n_n.contr.Idx) :
    (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide),
    dif_pos (show (1 : Fin S256x256.rank) ∈ dot_S8192x256_S256x256_S8192x256_1_0_0_1_n_n.rhsNonContracting by decide)]
  rfl

theorem as_lhs_row (i : S512x256.Idx) (q : dot_S512x8192_S8192x256_S512x256_1_0_0_1_n_n.contr.Idx) :
    (dot_S512x8192_S8192x256_S512x256_1_0_0_1_n_n.lhsIdx i q 0).val = (i 0).val := by
  unfold DotDims.lhsIdx
  rw [dif_neg (show ¬(0 : Fin S512x8192.rank) ∈ dot_S512x8192_S8192x256_S512x256_1_0_0_1_n_n.lhsBatch by decide),
    dif_pos (show (0 : Fin S512x8192.rank) ∈ dot_S512x8192_S8192x256_S512x256_1_0_0_1_n_n.lhsNonContracting by decide)]
  rfl
theorem as_lhs_col (i : S512x256.Idx) (q : dot_S512x8192_S8192x256_S512x256_1_0_0_1_n_n.contr.Idx) :
    (dot_S512x8192_S8192x256_S512x256_1_0_0_1_n_n.lhsIdx i q 1).val = (q ⟨0, by decide⟩).val :=
  dot_S512x8192_S8192x256_S512x256_1_0_0_1_n_n.lhsIdx_val_of_single rfl i q
theorem as_rhs_row (i : S512x256.Idx) (q : dot_S512x8192_S8192x256_S512x256_1_0_0_1_n_n.contr.Idx) :
    (dot_S512x8192_S8192x256_S512x256_1_0_0_1_n_n.rhsIdx i q 0).val = (q ⟨0, by decide⟩).val :=
  dot_S512x8192_S8192x256_S512x256_1_0_0_1_n_n.rhsIdx_val_of_single rfl i q
theorem as_rhs_col (i : S512x256.Idx) (q : dot_S512x8192_S8192x256_S512x256_1_0_0_1_n_n.contr.Idx) :
    (dot_S512x8192_S8192x256_S512x256_1_0_0_1_n_n.rhsIdx i q 1).val = (i 1).val := by
  unfold DotDims.rhsIdx
  rw [dif_neg (show ¬(1 : Fin S8192x256.rank) ∈ dot_S512x8192_S8192x256_S512x256_1_0_0_1_n_n.rhsBatch by decide),
    dif_pos (show (1 : Fin S8192x256.rank) ∈ dot_S512x8192_S8192x256_S512x256_1_0_0_1_n_n.rhsNonContracting by decide)]
  rfl

/-! ## The products at an entry -/

/-- Features times weights at `(k, c)`: the sum over `j` of `x[k, j] · W[j, c]`. -/
theorem xw_apply (x : Vec Ideal S8192x256 .f32) (w : Vec Ideal S256x256 .f32) (k : Fin 8192) (c : Fin 256) :
    k0_pay1 (F := Ideal) x w (ix2 k c) = Cert.GcnSpec.support x w k c := by
  unfold k0_pay1 Cert.GcnSpec.support
  refine (congrFun (shapeCast_self _ shapeCasts_S8192x256_S8192x256) (ix2 k c)).trans ?_
  refine (Ideal.matmul_constant_zero_apply dot_S8192x256_S256x256_S8192x256_1_0_0_1_n_n none x w (ix2 k c)).trans ?_
  rw [← Equiv.sum_comp (ValueIdx.contrEquiv1 dot_S8192x256_S256x256_S8192x256_1_0_0_1_n_n 256 rfl rfl).symm]
  refine Finset.sum_congr rfl fun j _ => ?_
  have hv := ValueIdx.contrEquiv1_symm_val dot_S8192x256_S256x256_S8192x256_1_0_0_1_n_n 256 rfl rfl j
  have el : dot_S8192x256_S256x256_S8192x256_1_0_0_1_n_n.lhsIdx (ix2 k c) ((ValueIdx.contrEquiv1 dot_S8192x256_S256x256_S8192x256_1_0_0_1_n_n 256 rfl rfl).symm j) = ix2 k j :=
    funext fun ax => Fin.ext (by
      match ax with
      | ⟨0, _⟩ => exact xw_lhs_row _ _
      | ⟨1, _⟩ => exact (xw_lhs_col _ _).trans hv)
  have er : dot_S8192x256_S256x256_S8192x256_1_0_0_1_n_n.rhsIdx (ix2 k c) ((ValueIdx.contrEquiv1 dot_S8192x256_S256x256_S8192x256_1_0_0_1_n_n 256 rfl rfl).symm j) = ix2 j c :=
    funext fun ax => Fin.ext (by
      match ax with
      | ⟨0, _⟩ => exact (xw_rhs_row _ _).trans hv
      | ⟨1, _⟩ => exact xw_rhs_col _ _)
  rw [el, er]

/-- An adjacency block times `s`, then the maximum with zero, at `(r, c)`. -/
theorem relu_block_apply (a : Vec Ideal S512x8192 .f32) (s : Vec Ideal S8192x256 .f32) (r : Fin 512) (c : Fin 256) :
    k0_pay2 (F := Ideal) a s (ix2 r c) = max (∑ k : Fin 8192, a (ix2 r k) * s (ix2 k c)) (Ideal.ofBits .f32 0x00000000#32) := by
  unfold k0_pay2
  refine (maximumf_apply _ _ (ix2 r c)).trans ?_
  refine congrArg₂ max ?_ rfl
  refine (Ideal.matmul_constant_zero_apply dot_S512x8192_S8192x256_S512x256_1_0_0_1_n_n none a s (ix2 r c)).trans ?_
  rw [← Equiv.sum_comp (ValueIdx.contrEquiv1 dot_S512x8192_S8192x256_S512x256_1_0_0_1_n_n 8192 rfl rfl).symm]
  refine Finset.sum_congr rfl fun k _ => ?_
  have hv := ValueIdx.contrEquiv1_symm_val dot_S512x8192_S8192x256_S512x256_1_0_0_1_n_n 8192 rfl rfl k
  have el : dot_S512x8192_S8192x256_S512x256_1_0_0_1_n_n.lhsIdx (ix2 r c) ((ValueIdx.contrEquiv1 dot_S512x8192_S8192x256_S512x256_1_0_0_1_n_n 8192 rfl rfl).symm k) = ix2 r k :=
    funext fun ax => Fin.ext (by
      match ax with
      | ⟨0, _⟩ => exact as_lhs_row _ _
      | ⟨1, _⟩ => exact (as_lhs_col _ _).trans hv)
  have er : dot_S512x8192_S8192x256_S512x256_1_0_0_1_n_n.rhsIdx (ix2 r c) ((ValueIdx.contrEquiv1 dot_S512x8192_S8192x256_S512x256_1_0_0_1_n_n 8192 rfl rfl).symm k) = ix2 k c :=
    funext fun ax => Fin.ext (by
      match ax with
      | ⟨0, _⟩ => exact (as_rhs_row _ _).trans hv
      | ⟨1, _⟩ => exact as_rhs_col _ _)
  rw [el, er]

end Cert.KernelIdeal.Gcn

end
-- ==== Proof.KernelSide.lean ====
/-
  The kernel's result array is the layer.

  Step `t` of the grid (`t = 0, …, 15`) reads rows `512 t … 512 t + 511` of the adjacency matrix and writes the same rows
  of the output. What it writes is `max (A_t · (x · W), 0)` (the carried-scratch argument), so entry `(r, q)` of its
  block is the layer's entry `(512 t + r, q)`: the adjacency block's row `r` is the matrix' row `512 t + r`
  (`adj_block_row`), and the two products read at an entry are the specification's sums. The sixteen blocks tile the
  8192 rows — row `p` lies in block `p / 512` — and every step writes its block back, so after the run the array holds
  the layer at every index (`final_layer`), and the kernel's run ends with the result array at the layer of the
  launch-time arguments, which it leaves unchanged (`run`).
-/
import proofs.«137262_g66340064854103_cont_9to1_m_1098_23_alg».proof.Proof.Carry
import proofs.«137262_g66340064854103_cont_9to1_m_1098_23_alg».proof.Proof.Products

noncomputable section

open scoped BigOperators

open Idealize.ShloMosaic Idealize.ShloMosaic.TcCoe Idealize.SL.Sem
open Idealize.ShloMosaic.Pipeline (Dat)

namespace Cert.KernelIdeal.Gcn

open Cert.KernelIdeal Cert.KernelIdeal.Gen Idealize.ShloMosaic.ValueIdx

variable (m : (ℓ : Loc nD τ sig) → Buf (Elt Ideal) ℓ) (ρ : Dev nD → PrngReg)

/-- One entry of what a step writes, for any matrices: if row `r` of the step's adjacency block is row `p` of the
    adjacency matrix, entry `(r, q)` of `max (block · (x · W), 0)` is the layer's entry `(p, q)`. -/
theorem entry_of_block (x : Vec Ideal S8192x256 .f32) (adj : Vec Ideal S8192x8192 .f32) (w : Vec Ideal S256x256 .f32)
    (blk : Vec Ideal S512x8192 .f32) (r : Fin 512) (q : Fin 256) (p : Fin 8192)
    (hrow : ∀ k : Fin 8192, blk (ix2 r k) = adj (ix2 p k)) :
    k0_pay2 (F := Ideal) blk (k0_pay1 (F := Ideal) x w) (ix2 r q) = Cert.GcnSpec.layer x adj w (ix2 p q) := by
  refine (relu_block_apply blk (k0_pay1 (F := Ideal) x w) r q).trans ?_
  refine (congrArg₂ max (Finset.sum_congr rfl fun k _ => ?_) rfl).trans (Cert.GcnSpec.layer_apply x adj w p q).symm
  exact congrArg₂ (· * ·) (hrow k) (xw_apply x w k q)

/-- Row `r` of step `t`'s adjacency block is row `512 t + r` of the adjacency matrix. -/
theorem adj_block_row (c : Dev nD) (t : Fin cfg0.N) (r : Fin 512) (p : Fin 8192) (hp : p.val = t.val * 512 + r.val) (k : Fin 8192) :
    (iblk m c 2 t : Vec Ideal S512x8192 .f32) (ix2 r k) = adjm m c (ix2 p k) := by
  obtain ⟨-, -, -, -, e0, e1, -⟩ := index_facts t
  unfold iblk
  rw [View.read_apply]
  show V m c main_arg1 _ = m ((c : Thread nD τ).loc main_arg1) (ix2 p k)
  unfold V
  congr 1
  funext a
  apply Fin.ext
  match a with
  | ⟨0, _⟩ => show win0_2.index t (0 : Fin 2) * 512 + 1 * r.val = p.val; rw [e0]; omega
  | ⟨1, _⟩ => show win0_2.index t (1 : Fin 2) * 8192 + 1 * k.val = k.val; rw [e1]; omega

/-- What step `t` writes back is block `t` of the layer of the launch-time arguments. -/
theorem flushed_layer (c : Dev nD) (t : Fin cfg0.N) :
    (dats m 0 c).flushed 3 t
      = ((cfg0.win 3).blk t).view.read (Elt Ideal) (Cert.GcnSpec.layer (feat m c) (adjm m c) (wgt m c)) := by
  have hN : cfg0.N = 16 := N_0
  have ht : t.val < 16 := lt_of_lt_of_eq t.isLt hN
  obtain ⟨-, -, -, -, -, -, f0, f1⟩ := index_facts t
  rw [Cert.KernelIdeal.Value.flushed3, written m c t]
  funext j
  obtain ⟨r, q, rfl⟩ : ∃ (r : Fin 512) (q : Fin 256), j = ix2 r q := ⟨j 0, j 1, eq_ix2 j⟩
  have hr : r.val < 512 := r.isLt
  show k0_pay2 (iblk m c 2 t) (support m c) (ix2 r q)
    = Cert.GcnSpec.layer (feat m c) (adjm m c) (wgt m c) (((cfg0.win 3).blk t).view.emb (ix2 r q))
  have hemb : ((cfg0.win 3).blk t).view.emb (ix2 r q) = ix2 (⟨t.val * 512 + r.val, by omega⟩ : Fin 8192) q := by
    funext a
    apply Fin.ext
    match a with
    | ⟨0, _⟩ => show win0_3.index t (0 : Fin 2) * 512 + 1 * r.val = t.val * 512 + r.val; rw [f0]; omega
    | ⟨1, _⟩ => show win0_3.index t (1 : Fin 2) * 256 + 1 * q.val = q.val; rw [f1]; omega
  rw [hemb]
  exact entry_of_block (feat m c) (adjm m c) (wgt m c) (iblk m c 2 t) r q ⟨t.val * 512 + r.val, by omega⟩
    (adj_block_row m c t r ⟨t.val * 512 + r.val, by omega⟩ rfl)

/-- An index of the output array is in step `t`'s block iff each coordinate is in the block's range on its axis. -/
theorem mem_block (t : Fin cfg0.N) (i : S8192x256.Idx) :
    i ∈ ((cfg0.win 3).blk t).view.set
      ↔ ∀ a : Fin 2, win0_3.index t a * S512x256.size a ≤ (i a).val ∧ (i a).val < win0_3.index t a * S512x256.size a + S512x256.size a := by
  show i ∈ ((View.whole main_v0).slice (win0_3.rect t)).set ↔ _
  rw [View.set_slice_whole, Rect.mem_set_unit]
  exact Iff.rfl

/-- Row `p` of the output lies in the block of step `p / 512`, which is written back. -/
theorem covered (i : S8192x256.Idx) :
    ∃ t : Fin cfg0.N, (cfg0.win 3).flush t = true ∧ i ∈ ((cfg0.win 3).blk t).view.set := by
  have hN : cfg0.N = 16 := N_0
  have hi0 : (i 0).val < 8192 := (i 0).isLt
  have hi1 : (i 1).val < 256 := (i 1).isLt
  have hlt : (i 0).val / 512 < cfg0.N := by omega
  obtain ⟨-, -, -, -, -, -, f0, f1⟩ := index_facts ⟨(i 0).val / 512, hlt⟩
  refine ⟨⟨(i 0).val / 512, hlt⟩, flush0_3 _, ?_⟩
  rw [mem_block]
  intro a
  match a with
  | ⟨0, _⟩ =>
    show win0_3.index ⟨(i 0).val / 512, hlt⟩ (0 : Fin 2) * 512 ≤ (i 0).val
      ∧ (i 0).val < win0_3.index ⟨(i 0).val / 512, hlt⟩ (0 : Fin 2) * 512 + 512
    rw [f0]; dsimp only; omega
  | ⟨1, _⟩ =>
    show win0_3.index ⟨(i 0).val / 512, hlt⟩ (1 : Fin 2) * 256 ≤ (i 1).val
      ∧ (i 1).val < win0_3.index ⟨(i 0).val / 512, hlt⟩ (1 : Fin 2) * 256 + 256
    rw [f1]; omega

/-- After the run the output array holds the layer of the launch-time arguments. -/
theorem final_layer (c : Dev nD) :
    (dats m 0 c).arrAt 3 cfg0.N = Cert.GcnSpec.layer (feat m c) (adjm m c) (wgt m c) :=
  (dats m 0 c).arrAt_eq_of_cover 3 (Cert.GcnSpec.layer (feat m c) (adjm m c) (wgt m c)) (fun t _ => flushed_layer m c t) covered

/-- The kernel's run: the result array ends at the layer of the launch-time arguments, which end unchanged. -/
theorem run : θ_run defs (onTc (τ := τ) (main (F := Ideal))) ⟨m, fun _ => 0, ρ⟩ fun r => ∀ c : Dev nD,
      r.2.mem ((c : Thread nD τ).loc main_v0) = Cert.GcnSpec.layer (feat m c) (adjm m c) (wgt m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_layer m c), (h c).2⟩) (Cert.KernelIdeal.Value.run_blocks m ρ)

end Cert.KernelIdeal.Gcn

end
-- ==== Proof.RefSide.lean ====
/-
  The reference computes the layer: two host matrix products and a clamp, read index by index.

  The host's `dot_general` of `x` and `W` is, at index `(k, c)`, the sum over `j` of `x[k, j] · W[j, c]`; the second
  `dot_general`, of `A` and that product, is at `(p, c)` the sum over `k` of `A[p, k]` times the first at `(k, c)`; and the
  `maximum` against the broadcast zero is the larger of that sum and zero. Once the index functions of the generated
  read lemmas are identified with indices built from coordinates, the composite is the specification's `layer`
  literally.
-/
import proofs.«137262_g66340064854103_cont_9to1_m_1098_23_alg».proof.Proof.Gen.ReferenceIdeal.Read
import proofs.«137262_g66340064854103_cont_9to1_m_1098_23_alg».proof.Proof.GcnSpec

noncomputable section

open scoped BigOperators

namespace Cert.ReferenceIdeal.Gcn

open Cert.ReferenceIdeal Cert.ReferenceIdeal.Read Idealize.ShloMosaic Idealize.ShloMosaic.ValueIdx

/-- At output index `(p, q)` the second product reads the adjacency matrix at row `p`, column `k` … -/
theorem adj_index (p : Fin 8192) (q : Fin 256) (k : Fin 8192) : lidx_main_v1 (ix2 p q) k = ix2 p k :=
  funext fun a => by match a with | ⟨0, _⟩ => rfl | ⟨1, _⟩ => rfl
/-- … and the first product at row `k`, column `q`. -/
theorem prod_index (p : Fin 8192) (q : Fin 256) (k : Fin 8192) : ridx_main_v1 (ix2 p q) k = ix2 k q :=
  funext fun a => by match a with | ⟨0, _⟩ => rfl | ⟨1, _⟩ => rfl
/-- The first product at `(k, c)` reads the feature matrix at row `k`, column `j` … -/
theorem feat_index (k : Fin 8192) (c : Fin 256) (j : Fin 256) : lidx_main_v0 (ix2 k c) j = ix2 k j :=
  funext fun a => by match a with | ⟨0, _⟩ => rfl | ⟨1, _⟩ => rfl
/-- … and the weight matrix at row `j`, column `c`. -/
theorem wgt_index (k : Fin 8192) (c : Fin 256) (j : Fin 256) : ridx_main_v0 (ix2 k c) j = ix2 j c :=
  funext fun a => by match a with | ⟨0, _⟩ => rfl | ⟨1, _⟩ => rfl

/-- The reference's result, as a function of its three arguments, is the layer. -/
theorem reference_eq (x0 : (⟨S8192x256, .f32⟩ : BufTy).Contents (Elt Ideal)) (x1 : (⟨S8192x8192, .f32⟩ : BufTy).Contents (Elt Ideal))
    (x2 : (⟨S256x256, .f32⟩ : BufTy).Contents (Elt Ideal)) :
    val_main_v2 (F := Ideal) x0 x1 x2 = Cert.GcnSpec.layer x0 x1 x2 := by
  funext i
  obtain ⟨p, q, rfl⟩ : ∃ (p : Fin 8192) (q : Fin 256), i = ix2 p q := ⟨i 0, i 1, eq_ix2 i⟩
  rw [Cert.GcnSpec.layer_apply, val_main_v2_apply, val_main_v1_apply, val_main_call0_v0_apply, val_main_call0_cst_apply]
  unfold Cert.GcnSpec.entry Cert.GcnSpec.support
  simp only [adj_index, prod_index, val_main_v0_apply, feat_index, wgt_index, Ideal.maximumf_def, Ideal.ofBits_def]

end Cert.ReferenceIdeal.Gcn

end
-- ==== Proof.lean ====
/-
  A dense graph-convolution layer, `relu (A · (x · W))`, computed by a fused kernel and by two host matrix products.

  The kernel walks a 2 × 8 grid. It keeps `x · W` in a scratch buffer that survives from step to step, recomputing it
  whenever the second grid coordinate is zero, and at every step multiplies a block of 512 rows of the adjacency
  matrix `A` by the scratch and clamps the result below at zero. The reference multiplies `x` by `W`, multiplies `A` by
  that, and clamps. Over the extended reals each matrix product is a plain finite sum, and both programs group the two
  products the same way, so both results are the one function

      layer (p, c) = max ( Σ_k A[p, k] · ( Σ_j x[k, j] · W[j, c] ) , 0 )

  of the arguments (Proof/GcnSpec.lean). No law that could fail at an infinity is used, so the inputs' finiteness is
  never opened.

    * Proof/CaseValues.lean — what one grid step leaves in the scratch and in the output block, per control case;
    * Proof/Carry.lean      — the scratch holds `x · W` after every step, hence what every step writes;
    * Proof/Products.lean   — the kernel's two matrix products at an entry, as sums;
    * Proof/KernelSide.lean — the sixteen row blocks tile the output: the kernel's result array is `layer`;
    * Proof/RefSide.lean    — the reference's result array is `layer`.

  The three runs (every execution terminates, nothing faults, the arguments end unchanged) are the generated ones:
  the kernel's frame at both instances, and the reference's run with its result dropped. The idealization rewrote
  nothing, so there is nothing to preserve.
-/
import proofs.«137262_g66340064854103_cont_9to1_m_1098_23_alg».proof.Defs
import proofs.«137262_g66340064854103_cont_9to1_m_1098_23_alg».proof.Proof.Gen.Kernel
import proofs.«137262_g66340064854103_cont_9to1_m_1098_23_alg».proof.Proof.Gen.Kernel.Frame
import proofs.«137262_g66340064854103_cont_9to1_m_1098_23_alg».proof.Proof.Gen.KernelIdeal
import proofs.«137262_g66340064854103_cont_9to1_m_1098_23_alg».proof.Proof.Gen.KernelIdeal.Frame
import proofs.«137262_g66340064854103_cont_9to1_m_1098_23_alg».proof.Proof.Gen.ReferenceIdeal
import proofs.«137262_g66340064854103_cont_9to1_m_1098_23_alg».proof.Proof.Gen.ReferenceIdeal.Run
import proofs.«137262_g66340064854103_cont_9to1_m_1098_23_alg».proof.Proof.Gen.Pre_finite_inputs
import proofs.«137262_g66340064854103_cont_9to1_m_1098_23_alg».proof.Proof.KernelSide
import proofs.«137262_g66340064854103_cont_9to1_m_1098_23_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_kernel_ideal :
    Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run, with the result forgotten. -/
theorem frame_reference :
    Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the three arguments both programs end with the result array at the layer of those
    arguments: the kernel by the tiling of its sixteen row blocks, the reference by reading its three operations
    entry by entry. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Cert.GcnSpec.layer (Cert.KernelIdeal.Gcn.feat m c) (Cert.KernelIdeal.Gcn.adjm m c) (Cert.KernelIdeal.Gcn.wgt m c),
    Cert.KernelIdeal.Gcn.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v2_eq _ _ _).trans ((Cert.ReferenceIdeal.Gcn.reference_eq _ _ _).trans ?_)
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
